-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S640000 32) (main_arg2 : IVec S640000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 43
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S640000, .f32⟩
  | .hbm, ⟨9, _⟩ => ⟨S_, .f32⟩
  | .hbm, ⟨10, _⟩ => ⟨S100000, .f32⟩
  | .hbm, ⟨11, _⟩ => ⟨S640000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x128, .f32⟩
  | .hbm, ⟨25, _⟩ => ⟨S100000x128, .f32⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x128, .f32⟩
  | .hbm, ⟨35, _⟩ => ⟨S_, .f32⟩
  | .hbm, ⟨36, _⟩ => ⟨S100000x128, .f32⟩
  | .hbm, ⟨37, _⟩ => ⟨S640000x1, .i32⟩
  | .hbm, ⟨38, _⟩ => ⟨S100000x128, .f32⟩
  | .hbm, ⟨39, _⟩ => ⟨S1x128, .f32⟩
  | .hbm, ⟨40, _⟩ => ⟨S1x128, .f32⟩
  | .hbm, ⟨41, _⟩ => ⟨S100000x1, .f32⟩
  | .hbm, ⟨42, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S640000, .f32⟩
  | .hbm, ⟨9, _⟩ => ⟨S_, .f32⟩
  | .hbm, ⟨10, _⟩ => ⟨S100000, .f32⟩
  | .hbm, ⟨11, _⟩ => ⟨S640000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x128, .f32⟩
  | .hbm, ⟨51, _⟩ => ⟨S_, .f32⟩
  | .hbm, ⟨52, _⟩ => ⟨S100000x128, .f32⟩
  | .hbm, ⟨53, _⟩ => ⟨S640000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S128x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S128x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_c_8 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Combine.lean ====
/-
  The function both programs compute, stated once over whole arrays at the ideal instance (every float an
  extended real, every operation exact).

  Node features `feats` and the aggregated neighbour messages `rst` are 100000 × 128 arrays, `dis` is the
  per-node factor deg^(-1/2) (zero where the degree is zero), `wmsg`, `wskip` are 128 × 128 weight matrices applied
  transposed, `bmsg`, `bskip` the biases.  Entry (r, c) of the result is

      ( Σ_k (rst[r,k] · dis[r]) · wmsg[c,k]  +  bmsg[c] )  +  ( Σ_k feats[r,k] · wskip[c,k]  +  bskip[c] ).

  The aggregate and the factor enter as plain arrays: how the degree histogram, the gather along edges and the
  scatter-add produce them is the same computation on both sides and is never opened.
-/
import Idealize.ShloMosaic.PureOps.Ideal
import Idealize.ShloMosaic.Lib.ValueIdx

noncomputable section

namespace Cert.Combine

open Idealize.ShloMosaic Idealize.ShloMosaic.ValueIdx

/-- Entry (r, c): the rescaled aggregate's row r against row c of `wmsg`, plus `bmsg[c]`, added to the feature
    row r against row c of `wskip`, plus `bskip[c]`. -/
def combineAt (feats rst : (⟨2, ![100000, 128]⟩ : Shape).Idx → EReal) (dis : (⟨1, ![100000]⟩ : Shape).Idx → EReal)
    (wmsg : (⟨2, ![128, 128]⟩ : Shape).Idx → EReal) (bmsg : (⟨1, ![128]⟩ : Shape).Idx → EReal)
    (wskip : (⟨2, ![128, 128]⟩ : Shape).Idx → EReal) (bskip : (⟨1, ![128]⟩ : Shape).Idx → EReal)
    (r : Fin 100000) (c : Fin 128) : EReal :=
  ((∑ k : Fin 128, (rst (ix2 r k) * dis (ix1 r)) * wmsg (ix2 c k)) + bmsg (ix1 c))
    + ((∑ k : Fin 128, feats (ix2 r k) * wskip (ix2 c k)) + bskip (ix1 c))

/-- The whole result array. -/
def combine (feats rst : (⟨2, ![100000, 128]⟩ : Shape).Idx → EReal) (dis : (⟨1, ![100000]⟩ : Shape).Idx → EReal)
    (wmsg : (⟨2, ![128, 128]⟩ : Shape).Idx → EReal) (bmsg : (⟨1, ![128]⟩ : Shape).Idx → EReal)
    (wskip : (⟨2, ![128, 128]⟩ : Shape).Idx → EReal) (bskip : (⟨1, ![128]⟩ : Shape).Idx → EReal) :
    (⟨2, ![100000, 128]⟩ : Shape).Idx → EReal :=
  fun i => combineAt feats rst dis wmsg bmsg wskip bskip (i 0) (i 1)

theorem combine_ix2 (feats rst : (⟨2, ![100000, 128]⟩ : Shape).Idx → EReal) (dis : (⟨1, ![100000]⟩ : Shape).Idx → EReal)
    (wmsg : (⟨2, ![128, 128]⟩ : Shape).Idx → EReal) (bmsg : (⟨1, ![128]⟩ : Shape).Idx → EReal)
    (wskip : (⟨2, ![128, 128]⟩ : Shape).Idx → EReal) (bskip : (⟨1, ![128]⟩ : Shape).Idx → EReal)
    (r : Fin 100000) (c : Fin 128) :
    combine feats rst dis wmsg bmsg wskip bskip (ix2 r c) = combineAt feats rst dis wmsg bmsg wskip bskip r c := rfl

end Cert.Combine

end
-- ==== Proof.RefCombine.lean ====
/-
  The reference program's result, read at an entry, is the stated function `combine` of the feature array, of the
  array its own aggregation stage produces (the scatter-add of the gathered, degree-scaled feature rows) and of
  its own degree-factor vector.

  After the aggregation the reference scales row r of the aggregate by the r-th factor (the factor vector spread
  to a column and then along the 128 lanes), multiplies by the transposed first weight matrix (at the ideal
  instance the sum over the contracted position of left entry times right entry), adds the first bias spread along
  the rows, and adds to that the feature array times the transposed second matrix plus the second bias.  Reading
  each layout step at an index — a transpose swaps the two coordinates, a spread forgets one — gives entry (r, c)
  of `combine`.
-/
import proofs.«158651_j7327214207511_2_alg».proof.Proof.RefRead
import proofs.«158651_j7327214207511_2_alg».proof.Proof.Combine

noncomputable section

namespace Cert.ReferenceIdeal.RefCombine

open Cert.ReferenceIdeal Cert.ReferenceIdeal.ReadP Idealize.ShloMosaic Idealize.ShloMosaic.ValueIdx Cert.Combine

/-! The composed index maps of the layout steps, as plain coordinates. -/

theorem left_of_first (r : Fin 100000) (c k : Fin 128) : lidx_main_v36 (ix2 r c) k = ix2 r k :=
  funext fun a => Fin.ext (by match a with | ⟨0, _⟩ => rfl | ⟨1, _⟩ => rfl)

theorem right_of_first (r : Fin 100000) (c k : Fin 128) : idx_main_v35 (ridx_main_v36 (ix2 r c) k) = ix2 c k :=
  funext fun a => Fin.ext (by match a with | ⟨0, _⟩ => rfl | ⟨1, _⟩ => rfl)

theorem factor_of_row (r : Fin 100000) (k : Fin 128) : idx_main_v32 (idx_main_v33 (ix2 r k)) = ix1 r :=
  funext fun a => Fin.ext (by match a with | ⟨0, _⟩ => rfl)

theorem first_bias_of_column (r : Fin 100000) (c : Fin 128) : idx_main_v37 (idx_main_v38 (ix2 r c)) = ix1 c :=
  funext fun a => Fin.ext (by match a with | ⟨0, _⟩ => rfl)

theorem left_of_second (r : Fin 100000) (c k : Fin 128) : lidx_main_v41 (ix2 r c) k = ix2 r k :=
  funext fun a => Fin.ext (by match a with | ⟨0, _⟩ => rfl | ⟨1, _⟩ => rfl)

theorem right_of_second (r : Fin 100000) (c k : Fin 128) : idx_main_v40 (ridx_main_v41 (ix2 r c) k) = ix2 c k :=
  funext fun a => Fin.ext (by match a with | ⟨0, _⟩ => rfl | ⟨1, _⟩ => rfl)

theorem second_bias_of_column (r : Fin 100000) (c : Fin 128) : idx_main_v42 (idx_main_v43 (ix2 r c)) = ix1 c :=
  funext fun a => Fin.ext (by match a with | ⟨0, _⟩ => rfl)

/-- The reference's last stage is `combine` of the features, its aggregate stage and its degree-factor stage. -/
theorem reference_is_combine (x0 : (⟨S100000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v45 (F := Ideal) x0 x1 x2 x3 x4 x5 x6
      = combine x0 (val_main_v31 (F := Ideal) x0 x1 x2) (val_main_v18 (F := Ideal) x1) x5 x6 x3 x4 := by
  funext i
  obtain ⟨r, c, rfl⟩ : ∃ (r : Fin 100000) (c : Fin 128), i = ix2 r c := ⟨i 0, i 1, eq_ix2 i⟩
  rw [combine_ix2]
  unfold combineAt
  rw [val_main_v45_apply, val_main_v39_apply, val_main_v44_apply, val_main_v36_apply, val_main_v38_apply,
    val_main_v37_apply, val_main_v41_apply, val_main_v43_apply, val_main_v42_apply,
    first_bias_of_column, second_bias_of_column]
  simp only [val_main_v34_apply, val_main_v33_apply, val_main_v32_apply, val_main_v35_apply, val_main_v40_apply,
    left_of_first, right_of_first, factor_of_row, left_of_second, right_of_second, Ideal.addf_def, Ideal.mulf_def]

end Cert.ReferenceIdeal.RefCombine

end
-- ==== Proof.KernelHost.lean ====
/-
  What the kernel's one region finds in the arrays its windows stage.

  Before the region the program computes, on the host: the source-degree histogram (a scatter-add of ones at the
  source indices); the factor deg^(-1/2), zero at degree zero; the feature rows scaled by their factor; those rows
  gathered along the edges (a negative source index wrapped by 100000 first) and scatter-added at the destination
  rows — the aggregate; and it lays the two biases out as 1 × 128 rows and the factor vector as a 100000 × 1 column.
  These are the very operations, in the very order, by which the reference program computes its own aggregate and
  factor vector, so each array is stated as the reference's stage of the same arguments (the two terms agree
  operation by operation); nothing of the histogram, the gather or the scatter-add is opened.
-/
import proofs.«158651_j7327214207511_2_alg».proof.Proof.Gen.KernelIdeal.Frame
import proofs.«158651_j7327214207511_2_alg».proof.Proof.RefRead
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The reference's degree-factor stage of the kernel's source-index argument. -/
abbrev factor (c : Dev nD) : S100000.Idx → EReal :=
  Cert.ReferenceIdeal.ReadP.val_main_v18 (F := Ideal) (m ((c : Thread nD τ).loc main_arg1))

/-- The reference's aggregate stage of the kernel's feature and index arguments. -/
abbrev aggregate (c : Dev nD) : S100000x128.Idx → EReal :=
  Cert.ReferenceIdeal.ReadP.val_main_v31 (F := Ideal) (m ((c : Thread nD τ).loc main_arg0))
    (m ((c : Thread nD τ).loc main_arg1)) (m ((c : Thread nD τ).loc main_arg2))

set_option maxHeartbeats 1000000 in
/-- The first bias as a 1 × 128 row. -/
theorem first_bias_found (c : Dev nD) :
    (V m c main_v22 : S1x128.Idx → EReal) = shapeCast S1x128 (m ((c : Thread nD τ).loc main_arg6)) shapeCasts_S128_S1x128 := by
  dsimp only [V]
  simp only [hostOps0, hostOps0_1, hostOps0_2, List.flatten_cons, List.flatten_nil, List.append_nil, List.cons_append, List.nil_append]
  after_results_simp
  rfl

set_option maxHeartbeats 1000000 in
/-- The second bias as a 1 × 128 row. -/
theorem second_bias_found (c : Dev nD) :
    (V m c main_v23 : S1x128.Idx → EReal) = shapeCast S1x128 (m ((c : Thread nD τ).loc main_arg4)) shapeCasts_S128_S1x128 := by
  dsimp only [V]
  simp only [hostOps0, hostOps0_1, hostOps0_2, List.flatten_cons, List.flatten_nil, List.append_nil, List.cons_append, List.nil_append]
  after_results_simp
  rfl

set_option maxHeartbeats 1000000 in
/-- The degree factors as a 100000 × 1 column. -/
theorem factor_found (c : Dev nD) :
    (V m c main_v24 : S100000x1.Idx → EReal) = shapeCast S100000x1 (factor m c) shapeCasts_S100000_S100000x1 := by
  dsimp only [V]
  simp only [hostOps0, hostOps0_1, hostOps0_2, List.flatten_cons, List.flatten_nil, List.append_nil, List.cons_append, List.nil_append]
  after_results_simp
  dsimp only [TRef.toBuf, TRef.ofBuf, cast_eq]
  rfl

set_option maxHeartbeats 1000000 in
/-- The aggregate. -/
theorem aggregate_found (c : Dev nD) :
    (V m c main_v21 : S100000x128.Idx → EReal) = aggregate m c := by
  dsimp only [V]
  simp only [hostOps0, hostOps0_1, hostOps0_2, List.flatten_cons, List.flatten_nil, List.append_nil, List.cons_append, List.nil_append]
  after_results_simp
  dsimp only [TRef.toBuf, TRef.ofBuf, cast_eq]
  rfl

end Cert.KernelIdeal.Host

end
-- ==== Proof.KernelBlocks.lean ====
/-
  Each staged block, read as entries of the array it was cut from.

  The grid has 20 steps; step t stages rows 5000·t … 5000·t + 4999 of the feature array, of the aggregate and of
  the degree-factor column, and the two weight matrices and the two bias rows whole.  A block's entry sits in its
  array at block index × block size + the coordinate inside the block, on each axis; so entry (p, k) of a row block
  is entry (5000·t + p, k) of the array, and an entry of a whole-staged array is that array's own entry.  The factor
  column and the bias rows are a vector laid out with a unit axis, so their entry is the vector's.
-/
import proofs.«158651_j7327214207511_2_alg».proof.Proof.Gen.KernelIdeal.Frame
import proofs.«158651_j7327214207511_2_alg».proof.Proof.KernelHost
import Idealize.ShloMosaic.Lib.Pipeline.Value
import Idealize.ShloMosaic.Lib.ValueLayout

noncomputable section

namespace Cert.KernelIdeal.Blocks

open Cert.KernelIdeal Cert.KernelIdeal.Gen Cert.KernelIdeal.Host
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Row p of step t's block is row 5000·t + p of the array. -/
def rowOf (t : Fin cfg0.N) (p : Fin 5000) : Fin 100000 :=
  ⟨5000 * t.val + p.val, by have := t.isLt; have hN : cfg0.N = 20 := N_0; have := p.isLt; omega⟩

/-- The printed index maps over the grid: the row-blocked windows (features, aggregate, factor column, result) are at
    block (t, 0) at step t, the whole-staged ones (weights, bias rows) at block (0, 0). -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-! ## Where a block's entry sits in its array -/

theorem feats_entry (t : Fin cfg0.N) (p : Fin 5000) (k : Fin 128) :
    (((cfg0.win 0).blk t).view.emb (ix2 p k) : S100000x128.Idx) = ix2 (rowOf t p) k := by
  obtain ⟨h0, h1⟩ := (block_indices t).1
  refine funext fun a => Fin.ext ?_
  match a with
  | ⟨0, _⟩ => show win0_0.index t (0 : Fin 2) * 5000 + 1 * p.val = 5000 * t.val + p.val; rw [h0]; omega
  | ⟨1, _⟩ => show win0_0.index t (1 : Fin 2) * 128 + 1 * k.val = k.val; rw [h1]; omega

theorem aggregate_entry (t : Fin cfg0.N) (p : Fin 5000) (k : Fin 128) :
    (((cfg0.win 1).blk t).view.emb (ix2 p k) : S100000x128.Idx) = ix2 (rowOf t p) k := by
  obtain ⟨h0, h1⟩ := (block_indices t).2.1
  refine funext fun a => Fin.ext ?_
  match a with
  | ⟨0, _⟩ => show win0_1.index t (0 : Fin 2) * 5000 + 1 * p.val = 5000 * t.val + p.val; rw [h0]; omega
  | ⟨1, _⟩ => show win0_1.index t (1 : Fin 2) * 128 + 1 * k.val = k.val; rw [h1]; omega

theorem factor_entry (t : Fin cfg0.N) (p : Fin 5000) :
    (((cfg0.win 2).blk t).view.emb (ix2 p (0 : Fin 1)) : S100000x1.Idx) = ix2 (rowOf t p) (0 : Fin 1) := by
  obtain ⟨h0, h1⟩ := (block_indices t).2.2.1
  refine funext fun a => Fin.ext ?_
  match a with
  | ⟨0, _⟩ => show win0_2.index t (0 : Fin 2) * 5000 + 1 * p.val = 5000 * t.val + p.val; rw [h0]; omega
  | ⟨1, _⟩ => show win0_2.index t (1 : Fin 2) * 1 + 1 * 0 = 0; rw [h1]

theorem first_weight_entry (t : Fin cfg0.N) (q k : Fin 128) :
    (((cfg0.win 3).blk t).view.emb (ix2 q k) : S128x128.Idx) = ix2 q k := by
  obtain ⟨h0, h1⟩ := (block_indices t).2.2.2.1
  refine funext fun a => Fin.ext ?_
  match a with
  | ⟨0, _⟩ => show win0_3.index t (0 : Fin 2) * 128 + 1 * q.val = q.val; rw [h0]; omega
  | ⟨1, _⟩ => show win0_3.index t (1 : Fin 2) * 128 + 1 * k.val = k.val; rw [h1]; omega

theorem first_bias_entry (t : Fin cfg0.N) (q : Fin 128) :
    (((cfg0.win 4).blk t).view.emb (ix2 (0 : Fin 1) q) : S1x128.Idx) = ix2 (0 : Fin 1) q := by
  obtain ⟨h0, h1⟩ := (block_indices t).2.2.2.2.1
  refine funext fun a => Fin.ext ?_
  match a with
  | ⟨0, _⟩ => show win0_4.index t (0 : Fin 2) * 1 + 1 * 0 = 0; rw [h0]
  | ⟨1, _⟩ => show win0_4.index t (1 : Fin 2) * 128 + 1 * q.val = q.val; rw [h1]; omega

theorem second_weight_entry (t : Fin cfg0.N) (q k : Fin 128) :
    (((cfg0.win 5).blk t).view.emb (ix2 q k) : S128x128.Idx) = ix2 q k := by
  obtain ⟨h0, h1⟩ := (block_indices t).2.2.2.2.2.1
  refine funext fun a => Fin.ext ?_
  match a with
  | ⟨0, _⟩ => show win0_5.index t (0 : Fin 2) * 128 + 1 * q.val = q.val; rw [h0]; omega
  | ⟨1, _⟩ => show win0_5.index t (1 : Fin 2) * 128 + 1 * k.val = k.val; rw [h1]; omega

theorem second_bias_entry (t : Fin cfg0.N) (q : Fin 128) :
    (((cfg0.win 6).blk t).view.emb (ix2 (0 : Fin 1) q) : S1x128.Idx) = ix2 (0 : Fin 1) q := by
  obtain ⟨h0, h1⟩ := (block_indices t).2.2.2.2.2.2.1
  refine funext fun a => Fin.ext ?_
  match a with
  | ⟨0, _⟩ => show win0_6.index t (0 : Fin 2) * 1 + 1 * 0 = 0; rw [h0]
  | ⟨1, _⟩ => show win0_6.index t (1 : Fin 2) * 128 + 1 * q.val = q.val; rw [h1]; omega

theorem result_entry (t : Fin cfg0.N) (p : Fin 5000) (q : Fin 128) :
    (((cfg0.win 7).blk t).view.emb (ix2 p q) : S100000x128.Idx) = ix2 (rowOf t p) q := by
  obtain ⟨h0, h1⟩ := (block_indices t).2.2.2.2.2.2.2
  refine funext fun a => Fin.ext ?_
  match a with
  | ⟨0, _⟩ => show win0_7.index t (0 : Fin 2) * 5000 + 1 * p.val = 5000 * t.val + p.val; rw [h0]; omega
  | ⟨1, _⟩ => show win0_7.index t (1 : Fin 2) * 128 + 1 * q.val = q.val; rw [h1]; omega

/-! ## Each staged block read as entries of its array -/

/-! A staged block's entry is its array's entry at the block's position. -/

theorem read_block0 (c : Dev nD) (t : Fin cfg0.N) (y : S5000x128.Idx) :
    (iblk m c 0 t : Vec Ideal S5000x128 .f32) y = (V m c main_arg0 : S100000x128.Idx → EReal) (((cfg0.win 0).blk t).view.emb y) := by
  unfold iblk
  rw [View.read_apply]
  exact cast_eq _ _

theorem read_block1 (c : Dev nD) (t : Fin cfg0.N) (y : S5000x128.Idx) :
    (iblk m c 1 t : Vec Ideal S5000x128 .f32) y = (V m c main_v21 : S100000x128.Idx → EReal) (((cfg0.win 1).blk t).view.emb y) := by
  unfold iblk
  rw [View.read_apply]
  exact cast_eq _ _

theorem read_block2 (c : Dev nD) (t : Fin cfg0.N) (y : S5000x1.Idx) :
    (iblk m c 2 t : Vec Ideal S5000x1 .f32) y = (V m c main_v24 : S100000x1.Idx → EReal) (((cfg0.win 2).blk t).view.emb y) := by
  unfold iblk
  rw [View.read_apply]
  exact cast_eq _ _

theorem read_block3 (c : Dev nD) (t : Fin cfg0.N) (y : S128x128.Idx) :
    (iblk m c 3 t : Vec Ideal S128x128 .f32) y = (V m c main_arg5 : S128x128.Idx → EReal) (((cfg0.win 3).blk t).view.emb y) := by
  unfold iblk
  rw [View.read_apply]
  exact cast_eq _ _

theorem read_block4 (c : Dev nD) (t : Fin cfg0.N) (y : S1x128.Idx) :
    (iblk m c 4 t : Vec Ideal S1x128 .f32) y = (V m c main_v22 : S1x128.Idx → EReal) (((cfg0.win 4).blk t).view.emb y) := by
  unfold iblk
  rw [View.read_apply]
  exact cast_eq _ _

theorem read_block5 (c : Dev nD) (t : Fin cfg0.N) (y : S128x128.Idx) :
    (iblk m c 5 t : Vec Ideal S128x128 .f32) y = (V m c main_arg3 : S128x128.Idx → EReal) (((cfg0.win 5).blk t).view.emb y) := by
  unfold iblk
  rw [View.read_apply]
  exact cast_eq _ _

theorem read_block6 (c : Dev nD) (t : Fin cfg0.N) (y : S1x128.Idx) :
    (iblk m c 6 t : Vec Ideal S1x128 .f32) y = (V m c main_v23 : S1x128.Idx → EReal) (((cfg0.win 6).blk t).view.emb y) := by
  unfold iblk
  rw [View.read_apply]
  exact cast_eq _ _

/-- A vector laid out as a column reads, at (i, 0), its i-th entry. -/
theorem column_of_vector_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem feats_block (c : Dev nD) (t : Fin cfg0.N) (p : Fin 5000) (k : Fin 128) :
    (iblk m c 0 t : Vec Ideal S5000x128 .f32) (ix2 p k)
      = (m ((c : Thread nD τ).loc main_arg0) : S100000x128.Idx → EReal) (ix2 (rowOf t p) k) :=
  (read_block0 m c t (ix2 p k)).trans ((congrFun (V_main_arg0 m c) _).trans
    (congrArg (m ((c : Thread nD τ).loc main_arg0) : S100000x128.Idx → EReal) (feats_entry t p k)))

theorem aggregate_block (c : Dev nD) (t : Fin cfg0.N) (p : Fin 5000) (k : Fin 128) :
    (iblk m c 1 t : Vec Ideal S5000x128 .f32) (ix2 p k) = aggregate m c (ix2 (rowOf t p) k) :=
  (read_block1 m c t (ix2 p k)).trans ((congrFun (aggregate_found m c) _).trans
    (congrArg (aggregate m c) (aggregate_entry t p k)))

theorem factor_block (c : Dev nD) (t : Fin cfg0.N) (p : Fin 5000) :
    (iblk m c 2 t : Vec Ideal S5000x1 .f32) (ix2 p (0 : Fin 1)) = factor m c (ix1 (rowOf t p)) :=
  (read_block2 m c t (ix2 p (0 : Fin 1))).trans ((congrFun (factor_found m c) _).trans
    ((congrArg (shapeCast S100000x1 (factor m c) shapeCasts_S100000_S100000x1) (factor_entry t p)).trans
      (column_of_vector_apply (factor m c) shapeCasts_S100000_S100000x1 (rowOf t p) (0 : Fin 1))))

theorem first_weight_block (c : Dev nD) (t : Fin cfg0.N) (q k : Fin 128) :
    (iblk m c 3 t : Vec Ideal S128x128 .f32) (ix2 q k)
      = (m ((c : Thread nD τ).loc main_arg5) : S128x128.Idx → EReal) (ix2 q k) :=
  (read_block3 m c t (ix2 q k)).trans ((congrFun (V_main_arg5 m c) _).trans
    (congrArg (m ((c : Thread nD τ).loc main_arg5) : S128x128.Idx → EReal) (first_weight_entry t q k)))

theorem first_bias_block (c : Dev nD) (t : Fin cfg0.N) (q : Fin 128) :
    (iblk m c 4 t : Vec Ideal S1x128 .f32) (ix2 (0 : Fin 1) q)
      = (m ((c : Thread nD τ).loc main_arg6) : S128.Idx → EReal) (ix1 q) :=
  (read_block4 m c t (ix2 (0 : Fin 1) q)).trans ((congrFun (first_bias_found m c) _).trans
    ((congrArg (shapeCast S1x128 (m ((c : Thread nD τ).loc main_arg6)) shapeCasts_S128_S1x128) (first_bias_entry t q)).trans
      (shapeCast_a_1a_apply (m ((c : Thread nD τ).loc main_arg6) : S128.Idx → EReal) shapeCasts_S128_S1x128 (0 : Fin 1) q)))

theorem second_weight_block (c : Dev nD) (t : Fin cfg0.N) (q k : Fin 128) :
    (iblk m c 5 t : Vec Ideal S128x128 .f32) (ix2 q k)
      = (m ((c : Thread nD τ).loc main_arg3) : S128x128.Idx → EReal) (ix2 q k) :=
  (read_block5 m c t (ix2 q k)).trans ((congrFun (V_main_arg3 m c) _).trans
    (congrArg (m ((c : Thread nD τ).loc main_arg3) : S128x128.Idx → EReal) (second_weight_entry t q k)))

theorem second_bias_block (c : Dev nD) (t : Fin cfg0.N) (q : Fin 128) :
    (iblk m c 6 t : Vec Ideal S1x128 .f32) (ix2 (0 : Fin 1) q)
      = (m ((c : Thread nD τ).loc main_arg4) : S128.Idx → EReal) (ix1 q) :=
  (read_block6 m c t (ix2 (0 : Fin 1) q)).trans ((congrFun (second_bias_found m c) _).trans
    ((congrArg (shapeCast S1x128 (m ((c : Thread nD τ).loc main_arg4)) shapeCasts_S128_S1x128) (second_bias_entry t q)).trans
      (shapeCast_a_1a_apply (m ((c : Thread nD τ).loc main_arg4) : S128.Idx → EReal) shapeCasts_S128_S1x128 (0 : Fin 1) q)))

end Cert.KernelIdeal.Blocks

end
-- ==== Proof.KernelBody.lean ====
/-
  One grid step's arithmetic, read at an entry.

  A step holds a 5000-row block of the features (`x0`), the same rows of the aggregated messages (`x1`), the
  column of those rows' degree factors (`x2`, 5000 × 1), both 128 × 128 weight matrices (`x3`, `x5`) and both
  biases as 1 × 128 rows (`x4`, `x6`).  It scales each aggregate row by its factor, multiplies by the first weight
  matrix transposed (a product into a zero accumulator, so the plain sum over the 128 contracted positions), adds
  the first bias along the rows, does the same for the feature block with the second matrix and bias, and adds the
  two.  At the ideal instance rounding to the narrower float format is the identity, so entry (p, q) is

      ( Σ_k (x1[p,k] · x2[p,0]) · x3[q,k] + x4[0,q] ) + ( Σ_k x0[p,k] · x5[q,k] + x6[0,q] ).
-/
import proofs.«158651_j7327214207511_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The dimension numbers of both products: rows of the left operand against ROWS of the right one (the weight
    matrix enters transposed), one contracted axis of extent 128. -/
abbrev rowsByRows := dot_S5000x128_S128x128_S5000x128_1_1_0_0_n_n

theorem lhs_row (i : S5000x128.Idx) (κ : rowsByRows.contr.Idx) : (rowsByRows.lhsIdx i κ 0).val = (i 0).val := by
  unfold DotDims.lhsIdx
  rw [dif_neg (show ¬(0 : Fin S5000x128.rank) ∈ rowsByRows.lhsBatch by decide),
    dif_pos (show (0 : Fin S5000x128.rank) ∈ rowsByRows.lhsNonContracting by decide)]
  rfl

theorem lhs_contracted (i : S5000x128.Idx) (κ : rowsByRows.contr.Idx) :
    (rowsByRows.lhsIdx i κ 1).val = (κ ⟨0, by decide⟩).val :=
  rowsByRows.lhsIdx_val_of_single rfl i κ

theorem rhs_row (i : S5000x128.Idx) (κ : rowsByRows.contr.Idx) : (rowsByRows.rhsIdx i κ 0).val = (i 1).val := by
  unfold DotDims.rhsIdx
  rw [dif_neg (show ¬(0 : Fin S128x128.rank) ∈ rowsByRows.rhsBatch by decide),
    dif_pos (show (0 : Fin S128x128.rank) ∈ rowsByRows.rhsNonContracting by decide)]
  rfl

theorem rhs_contracted (i : S5000x128.Idx) (κ : rowsByRows.contr.Idx) :
    (rowsByRows.rhsIdx i κ 1).val = (κ ⟨0, by decide⟩).val :=
  rowsByRows.rhsIdx_val_of_single rfl i κ

/-- The product into the zero accumulator at entry (p, q): row p of the left operand against row q of the right. -/
theorem product_apply {φ₁ φ₂ : FTy} (l : FVec Ideal S5000x128 φ₁) (w : FVec Ideal S128x128 φ₂) (p : Fin 5000) (q : Fin 128) :
    matmul rowsByRows none l w (constant (F := Ideal) S5000x128 .f32 0x00000000#32) (ix2 p q)
      = ∑ k : Fin 128, l (ix2 p k) * w (ix2 q k) := by
  refine (Ideal.matmul_constant_zero_apply rowsByRows none l w (ix2 p q)).trans ?_
  rw [← Equiv.sum_comp (ValueIdx.contrEquiv1 rowsByRows 128 rfl rfl).symm]
  refine Finset.sum_congr rfl fun k _ => ?_
  have hk := ValueIdx.contrEquiv1_symm_val rowsByRows 128 rfl rfl k
  have el : rowsByRows.lhsIdx (ix2 p q) ((ValueIdx.contrEquiv1 rowsByRows 128 rfl rfl).symm k) = ix2 p k :=
    funext fun a => Fin.ext (by
      match a with
      | ⟨0, _⟩ => exact lhs_row _ _
      | ⟨1, _⟩ => exact (lhs_contracted _ _).trans hk)
  have er : rowsByRows.rhsIdx (ix2 p q) ((ValueIdx.contrEquiv1 rowsByRows 128 rfl rfl).symm k) = ix2 q k :=
    funext fun a => Fin.ext (by
      match a with
      | ⟨0, _⟩ => exact rhs_row _ _
      | ⟨1, _⟩ => exact (rhs_contracted _ _).trans hk)
  rw [el, er]

/-- A 5000 × 1 column spread along the 128 lanes reads its row's one entry. -/
theorem column_spread_apply {α : Type} (v : S5000x1.Idx → α) (h : S5000x1.Broadcasts S5000x128) (p : Fin 5000) (q : Fin 128) :
    broadcastTo S5000x128 v h (ix2 p q) = v (ix2 p (0 : Fin 1)) :=
  broadcastTo_apply v h (ix2 p q) (ix2 p (0 : Fin 1)) (fun a => by
    match a with
    | ⟨0, _⟩ => rfl
    | ⟨1, _⟩ => rfl)

/-- A 1 × 128 row spread along the 5000 rows reads its column's one entry. -/
theorem row_spread_apply {α : Type} (v : S1x128.Idx → α) (h : S1x128.Broadcasts S5000x128) (p : Fin 5000) (q : Fin 128) :
    broadcastTo S5000x128 v h (ix2 p q) = v (ix2 (0 : Fin 1) q) :=
  broadcastTo_apply v h (ix2 p q) (ix2 (0 : Fin 1) q) (fun a => by
    match a with
    | ⟨0, _⟩ => rfl
    | ⟨1, _⟩ => rfl)

/-- Entry (p, q) of what one grid step stores. -/
theorem step_apply (x0 x1 : Vec Ideal S5000x128 .f32) (x2 : Vec Ideal S5000x1 .f32) (x3 : Vec Ideal S128x128 .f32)
    (x4 : Vec Ideal S1x128 .f32) (x5 : Vec Ideal S128x128 .f32) (x6 : Vec Ideal S1x128 .f32) (p : Fin 5000) (q : Fin 128) :
    k0_pay1 (F := Ideal) x0 x1 x2 x3 x4 x5 x6 (ix2 p q)
      = ((∑ k : Fin 128, (x1 (ix2 p k) * x2 (ix2 p (0 : Fin 1))) * x3 (ix2 q k)) + x4 (ix2 (0 : Fin 1) q))
        + ((∑ k : Fin 128, x0 (ix2 p k) * x5 (ix2 q k)) + x6 (ix2 (0 : Fin 1) q)) := by
  unfold k0_pay1
  simp only [shapeCast_self]
  show (matmul (F := Ideal) rowsByRows none _ _ _ (ix2 p q) + broadcastTo S5000x128 x4 _ (ix2 p q))
      + (matmul (F := Ideal) rowsByRows none _ _ _ (ix2 p q) + broadcastTo S5000x128 x6 _ (ix2 p q)) = _
  rw [product_apply, product_apply, row_spread_apply, row_spread_apply]
  refine congrArg₂ (· + ·) (congrArg₂ (· + ·) (Finset.sum_congr rfl fun k _ => ?_) rfl) rfl
  show (x1 (ix2 p k) * broadcastTo S5000x128 x2 _ (ix2 p k)) * x3 (ix2 q k) = _
  rw [column_spread_apply]

end Cert.KernelIdeal.Body

end
-- ==== Proof.KernelValue.lean ====
/-
  The kernel's result array, whole.

  The grid has 20 steps; step t stages rows 5000·t … 5000·t + 4999 of the feature array, of the aggregate and of
  the degree-factor column, the two weight matrices and the two bias rows whole, and writes back the same rows of
  the result.  So a staged entry (p, k) of a row-blocked array is entry (5000·t + p, k) of that array, and a staged
  entry of a whole-staged array is that array's own entry.  With one step's arithmetic read at an entry this makes
  what step t writes back the rows 5000·t … of `combine` of the whole arrays; the 20 blocks cover the result (row
  r lies in block r / 5000), so after the run the result array is `combine`.
-/
import proofs.«158651_j7327214207511_2_alg».proof.Proof.Gen.KernelIdeal.Value
import proofs.«158651_j7327214207511_2_alg».proof.Proof.KernelBlocks
import proofs.«158651_j7327214207511_2_alg».proof.Proof.KernelBody
import proofs.«158651_j7327214207511_2_alg».proof.Proof.Combine
import Idealize.ShloMosaic.Lib.Pipeline.Value
import Idealize.ShloMosaic.Lib.ValueLayout

noncomputable section

namespace Cert.KernelIdeal.Whole

open Cert.KernelIdeal Cert.KernelIdeal.Gen Cert.KernelIdeal.Host Cert.KernelIdeal.Blocks Cert.KernelIdeal.Body Cert.Combine
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- What the result array is claimed to hold: `combine` of the feature argument, the aggregate and degree factors
    computed from the arguments, and the weight and bias arguments. -/
abbrev result (c : Dev nD) : S100000x128.Idx → EReal :=
  combine (m ((c : Thread nD τ).loc main_arg0)) (aggregate m c) (factor m c)
    (m ((c : Thread nD τ).loc main_arg5)) (m ((c : Thread nD τ).loc main_arg6))
    (m ((c : Thread nD τ).loc main_arg3)) (m ((c : Thread nD τ).loc main_arg4))

/-! ## What a step writes back, the cover, the array -/

/-- What step t leaves in the result's staging buffer: one step's arithmetic of the staged blocks. -/
theorem step_left (c : Dev nD) (t : Fin cfg0.N) :
    (dats m 0 c).after 7 t = k0_pay1 (F := Ideal) (iblk m c 0 t) (iblk m c 1 t) (iblk m c 2 t) (iblk m c 3 t) (iblk m c 4 t) (iblk m c 5 t)
      (iblk m c 6 t) := by
  rw [after0_7]
  unfold out0_7
  rw [View.canon_unit_zero origin]
  simp only [View.ld_unit_zero (S := S5000x128) origin, View.ld_unit_zero (S := S5000x1) origin,
    View.ld_unit_zero (S := S128x128) origin, View.ld_unit_zero (S := S1x128) origin]

/-- Entry (p, q) of that is entry (5000·t + p, q) of `result`. -/
theorem step_entry (c : Dev nD) (t : Fin cfg0.N) (p : Fin 5000) (q : Fin 128) :
    k0_pay1 (F := Ideal) (iblk m c 0 t) (iblk m c 1 t) (iblk m c 2 t) (iblk m c 3 t) (iblk m c 4 t) (iblk m c 5 t)
      (iblk m c 6 t) (ix2 p q) = result m c (ix2 (rowOf t p) q) := by
  refine (step_apply (iblk m c 0 t) (iblk m c 1 t) (iblk m c 2 t) (iblk m c 3 t) (iblk m c 4 t) (iblk m c 5 t)
      (iblk m c 6 t) p q).trans ?_
  show _ = combineAt (m ((c : Thread nD τ).loc main_arg0)) (aggregate m c) (factor m c)
    (m ((c : Thread nD τ).loc main_arg5)) (m ((c : Thread nD τ).loc main_arg6))
    (m ((c : Thread nD τ).loc main_arg3)) (m ((c : Thread nD τ).loc main_arg4)) (rowOf t p) q
  unfold combineAt
  refine congrArg₂ (· + ·) (congrArg₂ (· + ·) (Finset.sum_congr rfl fun k _ => ?_) ?_)
    (congrArg₂ (· + ·) (Finset.sum_congr rfl fun k _ => ?_) ?_)
  · rw [aggregate_block m c t p k, factor_block m c t p, first_weight_block m c t q k]
  · exact first_bias_block m c t q
  · rw [feats_block m c t p k, second_weight_block m c t q k]
  · exact second_bias_block m c t q

/-- Step t writes back rows 5000·t … 5000·t + 4999 of `result`. -/
theorem written_back (c : Dev nD) (t : Fin cfg0.N) :
    (dats m 0 c).flushed 7 t = ((cfg0.win 7).blk t).view.read (Elt Ideal) (result m c) := by
  show (cfg0.win 7).cut (grid0.coords t) ((dats m 0 c).after 7 t) = _
  rw [step_left]
  refine funext fun (j : S5000x128.Idx) => ?_
  obtain ⟨p, q, rfl⟩ : ∃ (p : Fin 5000) (q : Fin 128), j = ix2 p q := ⟨j 0, j 1, eq_ix2 j⟩
  rw [View.read_apply]
  refine Eq.trans ?_ (cast_eq _ _).symm
  exact (step_entry m c t p q).trans (congrArg (result m c) (result_entry t p q)).symm

/-- An index of the result array is in step t's block iff each coordinate is in the block's range on its axis. -/
theorem mem_block (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v25).slice (win0_7.rect t)).set ↔ _
  rw [View.set_slice_whole, Rect.mem_set_unit]
  exact Iff.rfl

/-- Every index of the result array lies in some step's block: row r in block r / 5000. -/
theorem covered (i : S100000x128.Idx) :
    ∃ t : Fin cfg0.N, (cfg0.win 7).flush t = true ∧ i ∈ ((cfg0.win 7).blk t).view.set := by
  have hN : cfg0.N = 20 := N_0
  have hi0 : (i 0).val < 100000 := (i 0).isLt
  have hi1 : (i 1).val < 128 := (i 1).isLt
  let t : Fin cfg0.N := ⟨(i 0).val / 5000, by omega⟩
  obtain ⟨-, -, -, -, -, -, -, ⟨h0, h1⟩⟩ := block_indices t
  have ht : t.val = (i 0).val / 5000 := rfl
  refine ⟨t, flush0_7 t, ?_⟩
  rw [mem_block]
  intro a
  match a with
  | ⟨0, _⟩ =>
    show win0_7.index t (0 : Fin 2) * 5000 ≤ (i 0).val ∧ (i 0).val < win0_7.index t (0 : Fin 2) * 5000 + 5000
    rw [h0, ht]; omega
  | ⟨1, _⟩ =>
    show win0_7.index t (1 : Fin 2) * 128 ≤ (i 1).val ∧ (i 1).val < win0_7.index t (1 : Fin 2) * 128 + 128
    rw [h1]; omega

/-- After the run the result array is `result`. -/
theorem whole_array (c : Dev nD) : (dats m 0 c).arrAt 7 cfg0.N = result m c :=
  (dats m 0 c).arrAt_eq_of_cover 7 (result m c) (fun t _ => written_back m c t) covered

/-- The kernel's run: every weakly fair execution ends with the result array at `result` and the arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (whole_array m c), (h c).2⟩)
    (Cert.KernelIdeal.Value.run_blocks m ρ)

end Cert.KernelIdeal.Whole

end
-- ==== Proof.lean ====
/-
  The certificate's claims.

  The kernel program computes, on the host, a degree histogram, the factors deg^(-1/2), and the aggregate (feature rows
  scaled by their factor, gathered along the edges, scatter-added at the destination rows); its one region then
  forms, row block by row block, (aggregate · factor) · W₁ᵀ + b₁ + features · W₂ᵀ + b₂.  The reference computes the same
  histogram, factors and aggregate by the same operations and then the same expression on whole arrays.  At the
  ideal instance both result arrays are `Cert.Combine.combine` of the features, the aggregate, the factors, the two
  weight matrices and the two biases: the kernel's by reading each staged block as rows of its array and one step's
  arithmetic at an entry (Proof/KernelValue.lean), the reference's by reading its last twelve operations at an entry
  (Proof/RefCombine.lean).  No law of arithmetic beyond what both sides share is used, so the finiteness of the
  inputs is never opened.  The idealization rewrote no operation, so `preserves` has nothing to state.
-/
import proofs.«158651_j7327214207511_2_alg».proof.Defs
import proofs.«158651_j7327214207511_2_alg».proof.Proof.Gen.Kernel
import proofs.«158651_j7327214207511_2_alg».proof.Proof.Gen.Kernel.Skeleton
import proofs.«158651_j7327214207511_2_alg».proof.Proof.Gen.Kernel.Launch
import proofs.«158651_j7327214207511_2_alg».proof.Proof.Gen.Kernel.Points
import proofs.«158651_j7327214207511_2_alg».proof.Proof.Gen.Kernel.Frame
import proofs.«158651_j7327214207511_2_alg».proof.Proof.Gen.KernelIdeal
import proofs.«158651_j7327214207511_2_alg».proof.Proof.Gen.KernelIdeal.Skeleton
import proofs.«158651_j7327214207511_2_alg».proof.Proof.Gen.KernelIdeal.Launch
import proofs.«158651_j7327214207511_2_alg».proof.Proof.Gen.KernelIdeal.Points
import proofs.«158651_j7327214207511_2_alg».proof.Proof.Gen.KernelIdeal.Frame
import proofs.«158651_j7327214207511_2_alg».proof.Proof.Gen.ReferenceIdeal
import proofs.«158651_j7327214207511_2_alg».proof.Proof.Gen.KernelIdeal.Value
import proofs.«158651_j7327214207511_2_alg».proof.Proof.Gen.Pre_finite_inputs
import proofs.«158651_j7327214207511_2_alg».proof.Proof.RefRun
import proofs.«158651_j7327214207511_2_alg».proof.Proof.RefRead
import proofs.«158651_j7327214207511_2_alg».proof.Proof.RefCombine
import proofs.«158651_j7327214207511_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments both programs end with the result array at `combine` of the same
    features, aggregate, factors, weights and biases. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6⟩ := hagree c
  refine (Cert.ReferenceIdeal.ReadP.val_main_v45_eq (F := Ideal) _ _ _ _ _ _ _).trans ?_
  rw [Cert.ReferenceIdeal.RefCombine.reference_is_combine, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
